-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x512 : Shape := ⟨3, ![512, 64, 512]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S512x64x512 : S_.BroadcastsInDim S512x64x512 (![] : Fin 0 → Fin S512x64x512.rank)
  reducesTo_S512x64x512_S_d0_1_2 : S512x64x512.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S512x64x512 .f32) (main_arg1 : FVec F S64x1024 .f32) (main_arg2 : FVec F S512x1024 .f32) (main_arg3 : FVec F S1024x1024 .f32) (main_arg4 : FVec F S1024 .f32) : IVec S_ 1 :=
  let main_v0 : FVec F S512x64x512 .f32 := Host.absf main_arg0
  let main_cst : FVec F S_ .f32 := constant S_ .f32 0x7F800000#32
  let main_v1 : FVec F S512x64x512 .f32 := broadcastInDim S512x64x512 ![] bcast_S_S512x64x512 main_cst
  let main_v2 : IVec S512x64x512 1 := cmpf .olt main_v0 main_v1
  let main_c : IVec S_ 1 := constantI S_ 1 1#1
  let main_v3 : IVec S_ 1 := (fun x v => Host.reduce IntOp.andi x v reducesTo_S512x64x512_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S512x64x512 : Shape := ⟨3, ![512, 64, 512]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x64x1024 : Shape := ⟨3, ![512, 64, 1024]⟩
abbrev S16x64x512 : Shape := ⟨3, ![16, 64, 512]⟩
abbrev S16x64x1024 : Shape := ⟨3, ![16, 64, 1024]⟩
abbrev S1024x512 : Shape := ⟨2, ![1024, 512]⟩
abbrev S1x64x1024 : Shape := ⟨3, ![1, 64, 1024]⟩

abbrev nBuf : Space → Nat
  | .hbm => 11
  | .vmem => 6
  | .smem => 0
  | _ => 0

abbrev bufTy : (tb : Table) → Fin (tcTables nBuf tb) → BufTy
  | .hbm, ⟨0, _⟩ => ⟨S512x64x512, .f32⟩
  | .hbm, ⟨1, _⟩ => ⟨S64x1024, .f32⟩
  | .hbm, ⟨2, _⟩ => ⟨S512x1024, .f32⟩
  | .hbm, ⟨3, _⟩ => ⟨S1024x1024, .f32⟩
  | .hbm, ⟨4, _⟩ => ⟨S1024, .f32⟩
  | .hbm, ⟨5, _⟩ => ⟨S64x1024, .f32⟩
  | .hbm, ⟨6, _⟩ => ⟨S1x1024, .f32⟩
  | .hbm, ⟨7, _⟩ => ⟨S64x1024, .f32⟩
  | .hbm, ⟨8, _⟩ => ⟨S64x1024, .f32⟩
  | .hbm, ⟨9, _⟩ => ⟨S512x1024, .bf16⟩
  | .hbm, ⟨10, _⟩ => ⟨S512x64x1024, .f32⟩
  | .local _ .vmem, ⟨0, _⟩ => ⟨S16x64x512, .f32⟩
  | .local _ .vmem, ⟨1, _⟩ => ⟨S16x64x512, .f32⟩
  | .local _ .vmem, ⟨2, _⟩ => ⟨S64x1024, .f32⟩
  | .local _ .vmem, ⟨3, _⟩ => ⟨S512x1024, .bf16⟩
  | .local _ .vmem, ⟨4, _⟩ => ⟨S16x64x1024, .f32⟩
  | .local _ .vmem, ⟨5, _⟩ => ⟨S16x64x1024, .f32⟩
  | _, _ => ⟨S512x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bitsLt_bf16_f32 : FTy.bits .bf16 < FTy.bits .f32
  inb_S16x64x512_S16x64x512_0_0_0 : ∀ a, (![0, 0, 0] : Fin 3 → Nat) a + S16x64x512.size a ≤ S16x64x512.size a
  h_S16x64x512 : 0 < S16x64x512.numel
  shapeCasts_S16x64x512_S1024x512 : S16x64x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S16x64x1024 : S1024x1024.ShapeCasts S16x64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S64x1024_S1x64x1024 : S64x1024.ShapeCasts S1x64x1024
  broadcasts_S1x64x1024_S16x64x1024 : S1x64x1024.Broadcasts S16x64x1024
  inb_S16x64x1024_S16x64x1024_0_0_0 : ∀ a, (![0, 0, 0] : Fin 3 → Nat) a + S16x64x1024.size a ≤ S16x64x1024.size a
  h_S16x64x1024 : 0 < S16x64x1024.numel
  dot_S64x1024_S1024x1024_S64x1024_1_0_0_1_n_n_wf : DotDims.WF S64x1024 S1024x1024 S64x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x512.size a ≤ S512x64x512.size a
  hwx0_0 : ∀ i : grid0.Coords, EltTy.bits .f32 = 32 ∨ (Rect.block (s := S512x64x512) S16x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x1024.size a ≤ S512x64x1024.size a
  hwx0_3 : ∀ i : grid0.Coords, EltTy.bits .f32 = 32 ∨ (Rect.block (s := S512x64x1024) S16x64x1024.size (cc0_transform_3 i) (hinb0_3 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x64x512 : Shape := ⟨3, ![512, 64, 512]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x64x1024 : Shape := ⟨3, ![512, 64, 1024]⟩
abbrev S1x64x1024 : Shape := ⟨3, ![1, 64, 1024]⟩

abbrev nBuf : Space → Nat
  | .hbm => 14
  | .vmem => 0
  | .smem => 0
  | _ => 0

abbrev bufTy : (tb : Table) → Fin (tcTables nBuf tb) → BufTy
  | .hbm, ⟨0, _⟩ => ⟨S512x64x512, .f32⟩
  | .hbm, ⟨1, _⟩ => ⟨S64x1024, .f32⟩
  | .hbm, ⟨2, _⟩ => ⟨S512x1024, .f32⟩
  | .hbm, ⟨3, _⟩ => ⟨S1024x1024, .f32⟩
  | .hbm, ⟨4, _⟩ => ⟨S1024, .f32⟩
  | .hbm, ⟨5, _⟩ => ⟨S64x1024, .f32⟩
  | .hbm, ⟨6, _⟩ => ⟨S1x1024, .f32⟩
  | .hbm, ⟨7, _⟩ => ⟨S64x1024, .f32⟩
  | .hbm, ⟨8, _⟩ => ⟨S64x1024, .f32⟩
  | .hbm, ⟨9, _⟩ => ⟨S512x64x1024, .f32⟩
  | .hbm, ⟨10, _⟩ => ⟨S1x64x1024, .f32⟩
  | .hbm, ⟨11, _⟩ => ⟨S512x64x1024, .f32⟩
  | .hbm, ⟨12, _⟩ => ⟨S512x64x1024, .f32⟩
  | .hbm, ⟨13, _⟩ => ⟨S512x64x1024, .f32⟩
  | _, _ => ⟨S512x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S64x1024_S1x64x1024_1_2 : S64x1024.BroadcastsInDim S1x64x1024 (![1, 2] : Fin 2 → Fin S1x64x1024.rank)
  bcast_S1x64x1024_S512x64x1024_0_1_2 : S1x64x1024.BroadcastsInDim S512x64x1024 (![0, 1, 2] : Fin 3 → Fin S512x64x1024.rank)
  dot_S64x1024_S1024x1024_S64x1024_1_0_0_1_n_n_wf : DotDims.WF S64x1024 S1024x1024 S64x1024 [1] [0] [0] [1] [] []
  dot_S512x64x512_S512x1024_S512x64x1024_2_0_01_1_n_n_wf : DotDims.WF S512x64x512 S512x1024 S512x64x1024 [2] [0] [0, 1] [1] [] []

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S512x64x512_S512x1024_S512x64x1024_2_0_01_1_n_n : DotDims S512x64x512 S512x1024 S512x64x1024 where
  lhsContracting := [2]
  rhsContracting := [0]
  lhsNonContracting := [0, 1]
  rhsNonContracting := [1]
  lhsBatch := []
  rhsBatch := []
  wf := dot_S512x64x512_S512x1024_S512x64x1024_2_0_01_1_n_n_wf

class Facts : Prop extends Facts₀ where

variable [Facts]
-- ==== Proof.Spec.lean ====
/-
  The mathematics of the claim, with no program in sight.

  A recurrent cell whose hidden state is NOT fed back: at every time step `t` the same state projection
  `sp[b, h]` is added to the input projection, so the 512 time steps are independent and

      out[t, b, h] = tanh ( Σ_{k < 512} X[t, b, k] · W[k, h]  +  sp[b, h] )

  over the extended reals. `cellAt` is that number at explicit coordinates and `cell` the whole array
  `[512, 64, 1024]` as one function of the three arrays it depends on. Both programs of the certificate
  are shown to compute `cell` of the same arguments: the sum is over the same 512 products in both, so no
  law of the extended reals beyond re-indexing a finite sum is needed, and in particular nothing that
  would ask the entries to be finite.
-/
import Idealize.ShloMosaic.PureOps.Ideal
import Idealize.ShloMosaic.Lib.ValueIdx

noncomputable section

open scoped BigOperators

namespace Cert.RnnCell

open Idealize.ShloMosaic Idealize.ShloMosaic.ValueIdx

/-- One output entry: the inner product of row `(t, b)` of `X` with column `h` of `W`, plus the state
    projection at `(b, h)`, through `tanh` (which sends `-∞` to `-1` and `+∞` to `1`). -/
def cellAt (X : (⟨3, ![512, 64, 512]⟩ : Shape).Idx → EReal) (W : (⟨2, ![512, 1024]⟩ : Shape).Idx → EReal)
    (sp : (⟨2, ![64, 1024]⟩ : Shape).Idx → EReal) (t : Fin 512) (b : Fin 64) (h : Fin 1024) : EReal :=
  Ideal.tanh ((∑ k : Fin 512, X (ix3 t b k) * W (ix2 k h)) + sp (ix2 b h))

/-- The whole output array `[512, 64, 1024]`, entry by entry. -/
def cell (X : (⟨3, ![512, 64, 512]⟩ : Shape).Idx → EReal) (W : (⟨2, ![512, 1024]⟩ : Shape).Idx → EReal)
    (sp : (⟨2, ![64, 1024]⟩ : Shape).Idx → EReal) : (⟨3, ![512, 64, 1024]⟩ : Shape).Idx → EReal :=
  fun i => cellAt X W sp (i 0) (i 1) (i 2)

/-- At an index given by its coordinates the array is the entry. -/
theorem cell_ix3 (X : (⟨3, ![512, 64, 512]⟩ : Shape).Idx → EReal) (W : (⟨2, ![512, 1024]⟩ : Shape).Idx → EReal)
    (sp : (⟨2, ![64, 1024]⟩ : Shape).Idx → EReal) (t : Fin 512) (b : Fin 64) (h : Fin 1024) :
    cell X W sp (ix3 t b h) = cellAt X W sp t b h := rfl

end Cert.RnnCell

end
-- ==== Proof.HostPrefix.lean ====
/-
  What the kernel's program has computed before its tiled region starts.

  Two arrays of the region are not arguments but results of operations that precede it: the state
  projection `state · W_h + b_h` (a contraction over the hidden axis plus the bias repeated over the batch
  rows), and the input weights narrowed to a shorter float format. On extended reals the narrowing is the
  identity, so the region finds the weights themselves; the state projection is recorded as the term the
  operations compose and is not opened.
-/
import proofs.«170486_j3590592659654_2_alg».proof.Proof.Gen.KernelIdeal.Frame
import Idealize.ShloMosaic.Lib.StableHlo.Run
import Idealize.ShloMosaic.PureOps.Ideal

noncomputable section

namespace Cert.RnnCell

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The state projection `state · W_h + b_h` as the kernel's program composes it from its arguments. -/
def stateProj (c : Dev nD) : S64x1024.Idx → EReal :=
  addf (F := Ideal)
    (Host.dotGeneral (F := Ideal) (φ₁ := .f32) (φ₂ := .f32) dot_S64x1024_S1024x1024_S64x1024_1_0_0_1_n_n none
      (m ((c : Thread nD τ).loc main_arg1)) (m ((c : Thread nD τ).loc main_arg3)))
    (broadcastInDim S64x1024 ![0, 1] bcast_S1x1024_S64x1024_0_1
      (broadcastInDim S1x1024 ![1] bcast_S1024_S1x1024_1 (m ((c : Thread nD τ).loc main_arg4))))

/-- When the region starts, the buffer its second window stages holds the state projection. -/
theorem entry_stateProj (c : Dev nD) : (V m c main_v3 : S64x1024.Idx → EReal) = stateProj m c := by
  dsimp only [Gen.V, Gen.hostOps0]
  after_results <;> rfl

/-- When the region starts, the buffer its third window stages holds the input weights: narrowing the float
    format changes no extended real. -/
theorem entry_weights (c : Dev nD) :
    (V m c main_v4 : S512x1024.Idx → EReal) = (m ((c : Thread nD τ).loc main_arg2) : S512x1024.Idx → EReal) := by
  dsimp only [Gen.V, Gen.hostOps0]
  after_results <;> rfl

end Cert.RnnCell

end
-- ==== Proof.Layout.lean ====
/-
  Three re-layouts of a tile of 16 time steps, each read at an index given by its coordinates.

  A tile `[16, 64, ·]` of sixteen time steps by sixty-four batch rows is handed to the matrix unit as
  `16 · 64 = 1024` rows: row `(a, b)` of the tile is row `a · 64 + b` of the matrix (`row a b`), because
  both layouts list the entries in the same row-major order. `mergeRows_apply` reads the merged matrix,
  `splitRows_apply` reads the product split back into a tile, and `overTime_apply` reads a `[1, 64, 1024]`
  slab repeated along the sixteen time steps.
-/
import Idealize.ShloMosaic.Lib.Pipeline.Value
import Idealize.ShloMosaic.Lib.ValueIdx

namespace Cert.RnnCell

open Idealize.ShloMosaic Idealize.ShloMosaic.ValueIdx

variable {α : Type}

/-- Row `a · 64 + b` of the 1024-row matrix: where time step `a` of the tile and batch row `b` land. -/
def row (a : Fin 16) (b : Fin 64) : Fin 1024 :=
  ⟨a.val * 64 + b.val, by have := a.isLt; have := b.isLt; omega⟩

theorem row_val (a : Fin 16) (b : Fin 64) : (row a b).val = a.val * 64 + b.val := rfl

/-- The tile `[16, 64, 512]` viewed as the matrix `[1024, 512]`: entry `(row a b, k)` is the tile's `(a, b, k)`. -/
theorem mergeRows_apply (x : (⟨3, ![16, 64, 512]⟩ : Shape).Idx → α)
    (hc : (⟨3, ![16, 64, 512]⟩ : Shape).ShapeCasts ⟨2, ![1024, 512]⟩) (a : Fin 16) (b : Fin 64) (k : Fin 512) :
    shapeCast ⟨2, ![1024, 512]⟩ x hc (ix2 (row a b) k) = x (ix3 a b k) :=
  shapeCast_apply x hc _ _ (by
    rw [Shape.rowMajor_val_three, Shape.rowMajor_val_two]
    rfl)

/-- The matrix `[1024, 1024]` viewed as the tile `[16, 64, 1024]`: entry `(a, b, h)` is the matrix's `(row a b, h)`. -/
theorem splitRows_apply (x : (⟨2, ![1024, 1024]⟩ : Shape).Idx → α)
    (hc : (⟨2, ![1024, 1024]⟩ : Shape).ShapeCasts ⟨3, ![16, 64, 1024]⟩) (a : Fin 16) (b : Fin 64) (h : Fin 1024) :
    shapeCast ⟨3, ![16, 64, 1024]⟩ x hc (ix3 a b h) = x (ix2 (row a b) h) :=
  shapeCast_apply x hc _ _ (by
    rw [Shape.rowMajor_val_two, Shape.rowMajor_val_three]
    rfl)

/-- A slab `[1, 64, 1024]` repeated over sixteen time steps reads, at `(a, b, h)`, the slab's `(0, b, h)`. -/
theorem overTime_apply (x : (⟨3, ![1, 64, 1024]⟩ : Shape).Idx → α)
    (hb : (⟨3, ![1, 64, 1024]⟩ : Shape).Broadcasts ⟨3, ![16, 64, 1024]⟩) (a : Fin 16) (b : Fin 64) (h : Fin 1024) :
    broadcastTo ⟨3, ![16, 64, 1024]⟩ x hb (ix3 a b h) = x (ix3 (0 : Fin 1) b h) :=
  broadcastTo_apply x hb _ _ fun c => match c with
    | ⟨0, _⟩ => by show (0 : ℕ) = if (1 : ℕ) = 1 then 0 else a.val; rw [if_pos rfl]
    | ⟨1, _⟩ => by show b.val = if (64 : ℕ) = 1 then 0 else b.val; rw [if_neg (by decide)]
    | ⟨2, _⟩ => by show h.val = if (1024 : ℕ) = 1 then 0 else h.val; rw [if_neg (by decide)]

end Cert.RnnCell
-- ==== Proof.BodyCell.lean ====
/-
  What the kernel body computes from one tile, read at an entry.

  The body takes a tile `x0 : [16, 64, 512]` of sixteen time steps of `X`, the whole weight matrix
  `w : [512, 1024]` and the whole state projection `sp : [64, 1024]`. It lays the tile out as 1024 rows,
  multiplies by `w` into a zero accumulator, lays the product out as a tile again, adds `sp` repeated over
  the sixteen time steps, and applies `tanh`. Read at `(a, b, h)`:

    • the product at row `a · 64 + b` and column `h` is `Σ_k x0[a, b, k] · w[k, h]` — the accumulator is
      zero, the change of float format before the product is the identity on extended reals, and the two
      re-layouts keep row-major order (Layout.lean);
    • the repeated slab is `sp[b, h]`.

  So the entry is `tanh (Σ_k x0[a, b, k] · w[k, h] + sp[b, h])`.
-/
import proofs.«170486_j3590592659654_2_alg».proof.Proof.Gen.KernelIdeal.Skeleton
import proofs.«170486_j3590592659654_2_alg».proof.Proof.Layout
import Idealize.ShloMosaic.Lib.ValueLayout
import Idealize.ShloMosaic.PureOps.Ideal.Laws

noncomputable section

open scoped BigOperators

namespace Cert.RnnCell

open Cert.KernelIdeal Cert.KernelIdeal.Gen Idealize.ShloMosaic Idealize.ShloMosaic.ValueIdx

/-! ## The matrix product at an entry -/

/-- The left operand's row is the output's row. -/
theorem tileDot_lhs_row (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl

/-- The left operand's column is the summation index. -/
theorem tileDot_lhs_col (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q

/-- The right operand's row is the summation index. -/
theorem tileDot_rhs_row (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q

/-- The right operand's column is the output's column. -/
theorem tileDot_rhs_col (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The `[1024, 512] × [512, 1024]` product into a zero accumulator, at row `r` and column `h`, is the sum over the
    512 contracted positions of the products of the entries. -/
theorem product_apply (lhs : FVec Ideal S1024x512 .bf16) (rhs : FVec Ideal S512x1024 .bf16) (r : Fin 1024) (h : Fin 1024) :
    matmul dot_S1024x512_S512x1024_S1024x1024_1_0_0_1_n_n none lhs rhs (constant (F := Ideal) S1024x1024 .f32 0x00000000#32) (ix2 r h)
      = ∑ k : Fin 512, lhs (ix2 r k) * rhs (ix2 k h) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r h) ((contrEquiv1 dot_S1024x512_S512x1024_S1024x1024_1_0_0_1_n_n 512 rfl rfl).symm k) = ix2 r k := funext fun a => Fin.ext (by
    match a with
    | ⟨0, _⟩ => exact tileDot_lhs_row _ _
    | ⟨1, _⟩ => exact (tileDot_lhs_col _ _).trans hk)
  have er : dot_S1024x512_S512x1024_S1024x1024_1_0_0_1_n_n.rhsIdx (ix2 r h) ((contrEquiv1 dot_S1024x512_S512x1024_S1024x1024_1_0_0_1_n_n 512 rfl rfl).symm k) = ix2 k h := funext fun a => Fin.ext (by
    match a with
    | ⟨0, _⟩ => exact (tileDot_rhs_row _ _).trans hk
    | ⟨1, _⟩ => exact tileDot_rhs_col _ _)
  rw [el, er]

/-! ## The two summands of the body at an entry -/

/-- The input projection of the tile at `(a, b, h)`: the tile laid out as rows, narrowed (the identity here), multiplied
    by the weights and laid out as a tile again, is `Σ_k x0[a, b, k] · w[k, h]`. -/
theorem inputProjection_apply (x0 : FVec Ideal S16x64x512 .f32) (w : FVec Ideal S512x1024 .bf16)
    (hc1 : S16x64x512.ShapeCasts S1024x512) (hlt : FTy.bits .bf16 < FTy.bits .f32) (hc2 : S512x1024.ShapeCasts S512x1024)
    (hc3 : S1024x1024.ShapeCasts S16x64x1024) (a : Fin 16) (b : Fin 64) (h : Fin 1024) :
    shapeCast S16x64x1024 (matmul dot_S1024x512_S512x1024_S1024x1024_1_0_0_1_n_n none (truncf .bf16 (shapeCast S1024x512 x0 hc1) hlt)
        (shapeCast S512x1024 w hc2) (constant (F := Ideal) S1024x1024 .f32 0x00000000#32)) hc3 (ix3 a b h)
      = ∑ k : Fin 512, x0 (ix3 a b k) * w (ix2 k h) := by
  refine (splitRows_apply _ hc3 a b h).trans ?_
  refine (product_apply _ _ (row a b) h).trans ?_
  refine Finset.sum_congr rfl fun k _ => ?_
  rw [shapeCast_self]
  show shapeCast S1024x512 x0 hc1 (ix2 (row a b) k) * w (ix2 k h) = _
  rw [mergeRows_apply]

/-- The state projection as the body adds it, at `(a, b, h)`: given a unit time axis and repeated over the sixteen
    time steps, it is `sp[b, h]` at every step. -/
theorem stateSlab_apply (sp : FVec Ideal S64x1024 .f32) (hc4 : S64x1024.ShapeCasts S64x1024)
    (hc5 : S64x1024.ShapeCasts S1x64x1024) (hb : S1x64x1024.Broadcasts S16x64x1024) (a : Fin 16) (b : Fin 64) (h : Fin 1024) :
    broadcastTo S16x64x1024 (shapeCast S1x64x1024 (shapeCast S64x1024 sp hc4) hc5) hb (ix3 a b h) = sp (ix2 b h) := by
  refine (overTime_apply _ hb a b h).trans ?_
  refine (shapeCast_ab_1ab_apply _ hc5 (0 : Fin 1) b h).trans ?_
  rw [shapeCast_self]

/-! ## The body's stored value at an entry -/

/-- The value the body stores, at `(a, b, h)` of the tile: `tanh` of the input projection plus the state projection. -/
theorem payload_apply (x0 : Vec Ideal S16x64x512 .f32) (w : Vec Ideal S512x1024 .bf16) (sp : Vec Ideal S64x1024 .f32)
    (a : Fin 16) (b : Fin 64) (h : Fin 1024) :
    k0_pay1 (F := Ideal) x0 w sp (ix3 a b h)
      = Ideal.tanh ((∑ k : Fin 512, x0 (ix3 a b k) * w (ix2 k h)) + sp (ix2 b h)) := by
  unfold k0_pay1
  refine congrArg Ideal.tanh ?_
  refine congrArg₂ (· + ·) ?_ ?_
  · exact inputProjection_apply x0 w _ _ _ _ a b h
  · exact stateSlab_apply sp _ _ _ a b h

end Cert.RnnCell

end
-- ==== Proof.Blocks.lean ====
/-
  From tiles to the whole array.

  The region runs over 32 grid points. Point `t` stages time steps `16 t … 16 t + 15` of `X` (all batch rows and
  features), the whole state projection and the whole weight matrix, and writes back time steps
  `16 t … 16 t + 15` of the result. So row `a` of tile `t` is time step `16 t + a` of the array (`step t a`),
  on the input and on the output alike, and the other two windows do not move.

  Hence what point `t` writes back is tile `t` of `cell X W sp` (the body's entry, BodyCell.lean, with each
  block read where it lies in its array), the 32 tiles cover every time step (`t = i₀ / 16`), and the result
  array ends holding `cell X W sp`.
-/
import proofs.«170486_j3590592659654_2_alg».proof.Proof.Gen.KernelIdeal.Value
import proofs.«170486_j3590592659654_2_alg».proof.Proof.Spec
import proofs.«170486_j3590592659654_2_alg».proof.Proof.BodyCell
import Idealize.ShloMosaic.Lib.Pipeline.Value

noncomputable section

open scoped BigOperators

namespace Cert.RnnCell

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The grid has 32 points. -/
theorem points : cfg0.N = 32 := N_0

/-- The block index of each window at each grid point, decided over the 32 points: the input tile and the output
    tile are at block `t` of the time axis and block `0` of the others; the state projection and the weights are
    always at block `(0, 0)`. -/
theorem blockIndex : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The time step of the array that row `a` of tile `t` holds: `16 t + a`. -/
def step (t : Fin cfg0.N) (a : Fin 16) : Fin 512 :=
  ⟨t.val * 16 + a.val, by
    have ht : t.val < 32 := lt_of_lt_of_eq t.isLt points
    have := a.isLt
    omega⟩

theorem step_val (t : Fin cfg0.N) (a : Fin 16) : (step t a).val = t.val * 16 + a.val := rfl

/-! ## Each staged block, read where it lies in its array -/

/-- Tile `t` of `X` at `(a, b, k)` is `X` at time step `16 t + a`. -/
theorem xTile_apply (c : Dev nD) (t : Fin cfg0.N) (a : Fin 16) (b : Fin 64) (k : Fin 512) :
    (iblk m c 0 t : Vec Ideal S16x64x512 .f32) (ix3 a b k)
      = (V m c main_arg0 : S512x64x512.Idx → EReal) (ix3 (step t a) b k) := by
  obtain ⟨e0, e1, e2, -⟩ := blockIndex t
  unfold iblk
  rw [View.read_apply]
  show (V m c main_arg0 : S512x64x512.Idx → EReal) _ = _
  refine congrArg (V m c main_arg0 : S512x64x512.Idx → EReal) (funext fun d => Fin.ext ?_)
  match d with
  | ⟨0, _⟩ => show win0_0.index t (0 : Fin 3) * 16 + 1 * a.val = t.val * 16 + a.val; rw [e0]; omega
  | ⟨1, _⟩ => show win0_0.index t (1 : Fin 3) * 64 + 1 * b.val = b.val; rw [e1]; omega
  | ⟨2, _⟩ => show win0_0.index t (2 : Fin 3) * 512 + 1 * k.val = k.val; rw [e2]; omega

/-- The staged state projection is the whole of it, at every point. -/
theorem spBlock_apply (c : Dev nD) (t : Fin cfg0.N) (b : Fin 64) (h : Fin 1024) :
    (iblk m c 1 t : Vec Ideal S64x1024 .f32) (ix2 b h) = (V m c main_v3 : S64x1024.Idx → EReal) (ix2 b h) := by
  obtain ⟨-, -, -, e0, e1, -⟩ := blockIndex t
  unfold iblk
  rw [View.read_apply]
  show (V m c main_v3 : S64x1024.Idx → EReal) _ = _
  refine congrArg (V m c main_v3 : S64x1024.Idx → EReal) (funext fun d => Fin.ext ?_)
  match d with
  | ⟨0, _⟩ => show win0_1.index t (0 : Fin 2) * 64 + 1 * b.val = b.val; rw [e0]; omega
  | ⟨1, _⟩ => show win0_1.index t (1 : Fin 2) * 1024 + 1 * h.val = h.val; rw [e1]; omega

/-- The staged weights are the whole matrix, at every point. -/
theorem wBlock_apply (c : Dev nD) (t : Fin cfg0.N) (k : Fin 512) (h : Fin 1024) :
    (iblk m c 2 t : Vec Ideal S512x1024 .bf16) (ix2 k h) = (V m c main_v4 : S512x1024.Idx → EReal) (ix2 k h) := by
  obtain ⟨-, -, -, -, -, e0, e1, -⟩ := blockIndex t
  unfold iblk
  rw [View.read_apply]
  show (V m c main_v4 : S512x1024.Idx → EReal) _ = _
  refine congrArg (V m c main_v4 : S512x1024.Idx → EReal) (funext fun d => Fin.ext ?_)
  match d with
  | ⟨0, _⟩ => show win0_2.index t (0 : Fin 2) * 512 + 1 * k.val = k.val; rw [e0]; omega
  | ⟨1, _⟩ => show win0_2.index t (1 : Fin 2) * 1024 + 1 * h.val = h.val; rw [e1]; omega

/-- Entry `(a, b, h)` of output tile `t` lies at time step `16 t + a` of the result array. -/
theorem outTile_emb (t : Fin cfg0.N) (a : Fin 16) (b : Fin 64) (h : Fin 1024) :
    ((cfg0.win 3).blk t).view.emb (ix3 a b h : S16x64x1024.Idx) = (ix3 (step t a) b h : S512x64x1024.Idx) := by
  obtain ⟨-, -, -, -, -, -, -, e0, e1, e2⟩ := blockIndex t
  funext d
  apply Fin.ext
  match d with
  | ⟨0, _⟩ => show win0_3.index t (0 : Fin 3) * 16 + 1 * a.val = t.val * 16 + a.val; rw [e0]; omega
  | ⟨1, _⟩ => show win0_3.index t (1 : Fin 3) * 64 + 1 * b.val = b.val; rw [e1]; omega
  | ⟨2, _⟩ => show win0_3.index t (2 : Fin 3) * 1024 + 1 * h.val = h.val; rw [e2]; omega

/-! ## What a point writes back -/

/-- Point `t` writes back tile `t` of the cell of the three arrays as the region finds them. -/
theorem flushed_is_cell (c : Dev nD) (t : Fin cfg0.N) :
    (dats m 0 c).flushed 3 t
      = ((cfg0.win 3).blk t).view.read (Elt Ideal) (cell (V m c main_arg0) (V m c main_v4) (V m c main_v3)) := by
  rw [Cert.KernelIdeal.Value.flushed3]
  unfold out0_3
  rw [View.canon_unit_zero zero3]
  simp only [View.ld_unit_zero (S := S16x64x512) zero3, View.ld_unit_zero (S := S512x1024) zero2,
    View.ld_unit_zero (S := S64x1024) zero2]
  funext j
  obtain ⟨a, b, h, rfl⟩ : ∃ (a : Fin 16) (b : Fin 64) (h : Fin 1024), j = (ix3 a b h : S16x64x1024.Idx) :=
    ⟨j 0, j 1, j 2, eq_ix3 j⟩
  show k0_pay1 (F := Ideal) (iblk m c 0 t) (iblk m c 2 t) (iblk m c 1 t) (ix3 a b h)
      = cell (V m c main_arg0) (V m c main_v4) (V m c main_v3) (((cfg0.win 3).blk t).view.emb (ix3 a b h))
  rw [outTile_emb, cell_ix3]
  refine (payload_apply (iblk m c 0 t) (iblk m c 2 t) (iblk m c 1 t) a b h).trans ?_
  unfold cellAt
  refine congrArg Ideal.tanh (congrArg₂ (· + ·) (Finset.sum_congr rfl fun k _ => ?_) (spBlock_apply m c t b h))
  exact congrArg₂ (· * ·) (xTile_apply m c t a b k) (wBlock_apply m c t k h)

/-! ## The tiles cover the array -/

/-- An index of the result array is in tile `t` iff each coordinate is in the tile's range on its axis. -/
theorem mem_outTile (t : Fin cfg0.N) (i : S512x64x1024.Idx) :
    i ∈ ((cfg0.win 3).blk t).view.set ↔ ∀ a : Fin 3, win0_3.index t a * S16x64x1024.size a ≤ (i a).val
      ∧ (i a).val < win0_3.index t a * S16x64x1024.size a + S16x64x1024.size a := by
  show i ∈ ((View.whole main_v5).slice (win0_3.rect t)).set ↔ _
  rw [View.set_slice_whole, Rect.mem_set_unit]
  exact Iff.rfl

/-- Every index of the result array is in the tile of the point `i₀ / 16`, and every point writes back. -/
theorem covered (i : S512x64x1024.Idx) :
    ∃ t : Fin cfg0.N, (cfg0.win 3).flush t = true ∧ i ∈ ((cfg0.win 3).blk t).view.set := by
  have hi0 : (i 0).val < 512 := (i 0).isLt
  have hi1 : (i 1).val < 64 := (i 1).isLt
  have hi2 : (i 2).val < 1024 := (i 2).isLt
  have hN : cfg0.N = 32 := N_0
  obtain ⟨t, ht⟩ : ∃ t : Fin cfg0.N, t.val = (i 0).val / 16 := ⟨⟨(i 0).val / 16, by rw [hN]; omega⟩, rfl⟩
  obtain ⟨-, -, -, -, -, -, -, e0, e1, e2⟩ := blockIndex t
  refine ⟨t, flush0_3 t, ?_⟩
  rw [mem_outTile]
  intro a
  match a with
  | ⟨0, _⟩ =>
    show win0_3.index t (0 : Fin 3) * 16 ≤ (i 0).val ∧ (i 0).val < win0_3.index t (0 : Fin 3) * 16 + 16
    rw [e0, ht]; omega
  | ⟨1, _⟩ =>
    show win0_3.index t (1 : Fin 3) * 64 ≤ (i 1).val ∧ (i 1).val < win0_3.index t (1 : Fin 3) * 64 + 64
    rw [e1]; omega
  | ⟨2, _⟩ =>
    show win0_3.index t (2 : Fin 3) * 1024 ≤ (i 2).val ∧ (i 2).val < win0_3.index t (2 : Fin 3) * 1024 + 1024
    rw [e2]; omega

/-- The result array after the region: the cell of the three arrays as the region finds them. -/
theorem final (c : Dev nD) :
    (dats m 0 c).arrAt 3 cfg0.N = cell (V m c main_arg0) (V m c main_v4) (V m c main_v3) :=
  (dats m 0 c).arrAt_eq_of_cover 3 _ (fun t _ => flushed_is_cell m c t) covered

end Cert.RnnCell

end
-- ==== Proof.RefCell.lean ====
/-
  The reference computes the cell.

  Its last stage is `tanh` of the sum of two arrays: the contraction of `X` with `W` over the input
  feature axis, and the state projection (its third stage) carried from `[64, 1024]` to
  `[512, 64, 1024]` by two broadcasts, the first adding a unit time axis and the second repeating along
  it. Read at `(t, b, h)` the contraction is `Σ_k X[t, b, k] · W[k, h]` and the broadcasts read the
  projection at `(b, h)`: the entry `cellAt`. The state projection itself is never opened here.
-/
import proofs.«170486_j3590592659654_2_alg».proof.Proof.Gen.ReferenceIdeal.Read
import proofs.«170486_j3590592659654_2_alg».proof.Proof.Spec

noncomputable section

open scoped BigOperators

namespace Cert.RnnCell

open Cert.ReferenceIdeal Cert.ReferenceIdeal.Read Idealize.ShloMosaic Idealize.ShloMosaic.ValueIdx

/-- The left operand of the contraction at output `(t, b, h)` and summation index `k` is `X[t, b, k]`. -/
theorem lidx_v4_ix3 (t : Fin 512) (b : Fin 64) (h : Fin 1024) (k : Fin 512) :
    lidx_main_v4 (ix3 t b h) k = ix3 t b k :=
  funext fun a => Fin.ext (by match a with | ⟨0, _⟩ => rfl | ⟨1, _⟩ => rfl | ⟨2, _⟩ => rfl)

/-- The right operand there is `W[k, h]`. -/
theorem ridx_v4_ix3 (t : Fin 512) (b : Fin 64) (h : Fin 1024) (k : Fin 512) :
    ridx_main_v4 (ix3 t b h) k = ix2 k h :=
  funext fun a => Fin.ext (by match a with | ⟨0, _⟩ => rfl | ⟨1, _⟩ => rfl)

/-- The two broadcasts read the state projection at `(b, h)`, whatever the time step. -/
theorem idx_v5_v6_ix3 (t : Fin 512) (b : Fin 64) (h : Fin 1024) :
    idx_main_v5 (idx_main_v6 (ix3 t b h)) = ix2 b h :=
  funext fun a => Fin.ext (by match a with | ⟨0, _⟩ => rfl | ⟨1, _⟩ => rfl)

/-- The reference's result, as a function of its five arguments, is the cell of `X`, `W` and its own
    state projection (the stage `val_main_v3` of the state, the recurrent weights and the bias). -/
theorem reference_is_cell (x0 : (⟨S512x64x512, .f32⟩ : BufTy).Contents (Elt Ideal))
    (x1 : (⟨S64x1024, .f32⟩ : BufTy).Contents (Elt Ideal)) (x2 : (⟨S512x1024, .f32⟩ : BufTy).Contents (Elt Ideal))
    (x3 : (⟨S1024x1024, .f32⟩ : BufTy).Contents (Elt Ideal)) (x4 : (⟨S1024, .f32⟩ : BufTy).Contents (Elt Ideal)) :
    val_main_v8 (F := Ideal) x0 x1 x2 x3 x4 = cell x0 x2 (val_main_v3 (F := Ideal) x1 x3 x4) := by
  funext i
  obtain ⟨t, b, h, rfl⟩ : ∃ (t : Fin 512) (b : Fin 64) (h : Fin 1024), i = ix3 t b h := ⟨i 0, i 1, i 2, eq_ix3 i⟩
  rw [cell_ix3, val_main_v8_apply, val_main_v7_apply, val_main_v4_apply, val_main_v6_apply, val_main_v5_apply]
  simp only [lidx_v4_ix3, ridx_v4_ix3, idx_v5_v6_ix3]
  rfl

end Cert.RnnCell

end
-- ==== Proof.lean ====
/-
  A time-batched recurrent cell whose hidden state is never fed back, against its plain reference.

  Both programs compute, over the extended reals and for every time step `t`, batch row `b` and hidden unit `h`,

      out[t, b, h] = tanh ( Σ_{k < 512} X[t, b, k] · W_x[k, h]  +  (state · W_h + b_h)[b, h] )

  and return the state unchanged beside it. The reference does it with one contraction over all 512 time
  steps. The kernel first forms the state projection `state · W_h + b_h` and narrows `W_x` to a shorter float
  format (the identity on extended reals), then runs 32 grid points, each multiplying a tile of 16 time steps,
  laid out as 1024 rows, by the weights on the matrix unit into a zero accumulator, adding the state projection
  repeated over the 16 steps, and applying `tanh`.

  The two agree entry by entry because the kernel's tile `t`, row `a`, is time step `16 t + a` of the array, on
  the input and on the output alike, so each output entry is the same sum of the same 512 products in both
  programs; the 32 tiles cover every time step. The state projection is composed by the same operations in
  both programs and is compared as a whole, never opened. No step uses a law of the extended reals that needs
  finite entries: only a finite sum re-indexed along a bijection. Both `tanh`s are the one function
  `Ideal.tanh` (`-∞ ↦ -1`, `+∞ ↦ 1`).

  The modules: Spec (the function `cell`), Layout (three re-layouts of a tile at an entry), BodyCell (the value
  the body stores, at an entry), HostPrefix (what the region finds in the two buffers computed before it),
  Blocks (from what each point writes back to the whole array), RefCell (the reference is `cell`). The three
  frames are the generated ones; the idealization rewrote nothing, so `preserves` holds trivially.
-/
import proofs.«170486_j3590592659654_2_alg».proof.Defs
import proofs.«170486_j3590592659654_2_alg».proof.Proof.Gen.Kernel
import proofs.«170486_j3590592659654_2_alg».proof.Proof.Gen.Kernel.Frame
import proofs.«170486_j3590592659654_2_alg».proof.Proof.Gen.KernelIdeal
import proofs.«170486_j3590592659654_2_alg».proof.Proof.Gen.KernelIdeal.Frame
import proofs.«170486_j3590592659654_2_alg».proof.Proof.Gen.KernelIdeal.Value
import proofs.«170486_j3590592659654_2_alg».proof.Proof.Gen.ReferenceIdeal
import proofs.«170486_j3590592659654_2_alg».proof.Proof.Gen.ReferenceIdeal.Run
import proofs.«170486_j3590592659654_2_alg».proof.Proof.Gen.ReferenceIdeal.Read
import proofs.«170486_j3590592659654_2_alg».proof.Proof.Gen.Pre_finite_inputs
import proofs.«170486_j3590592659654_2_alg».proof.Proof.Spec
import proofs.«170486_j3590592659654_2_alg».proof.Proof.HostPrefix
import proofs.«170486_j3590592659654_2_alg».proof.Proof.Blocks
import proofs.«170486_j3590592659654_2_alg».proof.Proof.RefCell
import Idealize.ShloMosaic.Adequacy
import Idealize.ShloMosaic.Init

noncomputable section

namespace Cert.Proof

open Idealize.ShloMosaic Idealize.ShloMosaic.TcCoe Idealize.SL.Sem

/-! ## The kernel's result array -/

/-- After the region the kernel's result array is the cell of `X`, `W_x` and the state projection: what the region
    finds in its three input arrays is `X` itself, `W_x` (narrowed: unchanged) and the state projection. -/
theorem kernel_result (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 3 Cert.KernelIdeal.cfg0.N
      = Cert.RnnCell.cell (m ((c : Thread Cert.KernelIdeal.nD Cert.KernelIdeal.τ).loc Cert.KernelIdeal.main_arg0))
          (m ((c : Thread Cert.KernelIdeal.nD Cert.KernelIdeal.τ).loc Cert.KernelIdeal.main_arg2))
          (Cert.RnnCell.stateProj m c) := by
  rw [Cert.RnnCell.final m c, Cert.KernelIdeal.Gen.V_main_arg0 m c, Cert.RnnCell.entry_weights m c,
    Cert.RnnCell.entry_stateProj m c]

/-- The kernel's state projection and the reference's third stage are one term of the same three arguments: the
    same contraction, the same two broadcasts of the bias, the same sum. -/
theorem stateProj_is_reference_stage
    (m : (ℓ : Loc Cert.KernelIdeal.nD Cert.KernelIdeal.τ Cert.KernelIdeal.sig) → Buf (Elt Ideal) ℓ) (c : Dev Cert.KernelIdeal.nD) :
    Cert.ReferenceIdeal.Read.val_main_v3 (F := Ideal)
        (m ((c : Thread Cert.KernelIdeal.nD Cert.KernelIdeal.τ).loc Cert.KernelIdeal.main_arg1))
        (m ((c : Thread Cert.KernelIdeal.nD Cert.KernelIdeal.τ).loc Cert.KernelIdeal.main_arg3))
        (m ((c : Thread Cert.KernelIdeal.nD Cert.KernelIdeal.τ).loc Cert.KernelIdeal.main_arg4))
      = Cert.RnnCell.stateProj m c := rfl

/-! ## The claims -/

theorem frame_kernel : Cert.frame_Kernel := fun m ρ _ => Cert.Kernel.Gen.frame m ρ

theorem frame_ideal : Cert.frame_KernelIdeal := fun m ρ _ => Cert.KernelIdeal.Gen.frame m ρ

/-- The reference has no tiled region: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the five arguments both programs end with the cell of `X`, `W_x` and the state
    projection in the first result and the state in the second. -/
theorem algebraic : Cert.algebraic_KernelIdeal_ReferenceIdeal := by
  intro m ρ m' ρ' _ hagree
  refine ⟨fun c => Cert.RnnCell.cell (m ((c : Thread Cert.KernelIdeal.nD Cert.KernelIdeal.τ).loc Cert.KernelIdeal.main_arg0))
      (m ((c : Thread Cert.KernelIdeal.nD Cert.KernelIdeal.τ).loc Cert.KernelIdeal.main_arg2)) (Cert.RnnCell.stateProj m c),
    fun c => m ((c : Thread Cert.KernelIdeal.nD Cert.KernelIdeal.τ).loc Cert.KernelIdeal.main_arg1), ?_, ?_⟩
  · exact (θ_run Cert.KernelIdeal.defs _ _).mono
      (fun r h c => ⟨(h c).1.trans (kernel_result m c), (h c).2.2.1, (h c).2⟩)
      (Cert.KernelIdeal.Value.run_blocks (F := Ideal) m ρ)
  · refine (θ_run Cert.ReferenceIdeal.defs _ _).mono
      (fun r h c => ⟨(h c).1.trans ?_, (h c).2.1.trans (hagree c).2.1, (h c).2.2⟩)
      (Cert.ReferenceIdeal.Value.run (F := Ideal) m' ρ')
    rw [Cert.ReferenceIdeal.Read.val_main_v8_eq, Cert.RnnCell.reference_is_cell, (hagree c).1, (hagree c).2.1,
      (hagree c).2.2.1, (hagree c).2.2.2.1, (hagree c).2.2.2.2, stateProj_is_reference_stage m c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
